-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16384 : Shape := ⟨2, ![4096, 16384]⟩
abbrev S1x16384 : Shape := ⟨2, ![1, 16384]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x16384 : S_.BroadcastsInDim S1x16384 (![] : Fin 0 → Fin S1x16384.rank)
  reducesTo_S1x16384_S_d0_1 : S1x16384.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : IVec S4096x16384 32) (main_arg2 : FVec F S1x16384 .f32) (main_arg3 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x16384 .f32 := Host.absf main_arg2
  let main_cst_0 : FVec F S_ .f32 := constant S_ .f32 0x7F800000#32
  let main_v5 : FVec F S1x16384 .f32 := broadcastInDim S1x16384 ![] bcast_S_S1x16384 main_cst_0
  let main_v6 : IVec S1x16384 1 := cmpf .olt main_v4 main_v5
  let main_c_1 : IVec S_ 1 := constantI S_ 1 1#1
  let main_v7 : IVec S_ 1 := (fun x v => Host.reduce IntOp.andi x v reducesTo_S1x16384_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S4096x16384 : Shape := ⟨2, ![4096, 16384]⟩
abbrev S1x16384 : Shape := ⟨2, ![1, 16384]⟩
abbrev S16384 : Shape := ⟨1, ![16384]⟩
abbrev S8192x16384 : Shape := ⟨2, ![8192, 16384]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x16384, .i32⟩
  | .hbm, ⟨2, _⟩ => ⟨S1x16384, .f32⟩
  | .hbm, ⟨3, _⟩ => ⟨S16384, .f32⟩
  | .hbm, ⟨4, _⟩ => ⟨S1x16384, .f32⟩
  | .hbm, ⟨5, _⟩ => ⟨S8192x16384, .f32⟩
  | .local _ .vmem, ⟨0, _⟩ => ⟨S1024x512, .f32⟩
  | .local _ .vmem, ⟨1, _⟩ => ⟨S1024x512, .f32⟩
  | .local _ .vmem, ⟨2, _⟩ => ⟨S512x1024, .i32⟩
  | .local _ .vmem, ⟨3, _⟩ => ⟨S512x1024, .i32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x16384.size a
  hwx0_1 : ∀ i : grid0.Coords, EltTy.bits .i32 = 32 ∨ (Rect.block (s := S4096x16384) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x16384.size a
  hwx0_4 : ∀ i : grid0.Coords, EltTy.bits .f32 = 32 ∨ (Rect.block (s := S8192x16384) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x16384 : Shape := ⟨2, ![4096, 16384]⟩
abbrev S1x16384 : Shape := ⟨2, ![1, 16384]⟩
abbrev S16384 : Shape := ⟨1, ![16384]⟩
abbrev S8192x16384 : Shape := ⟨2, ![8192, 16384]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x16384, .i32⟩
  | .hbm, ⟨2, _⟩ => ⟨S1x16384, .f32⟩
  | .hbm, ⟨3, _⟩ => ⟨S16384, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S8192x16384, .f32⟩
  | .hbm, ⟨8, _⟩ => ⟨S1x16384, .f32⟩
  | .hbm, ⟨9, _⟩ => ⟨S8192x16384, .f32⟩
  | .hbm, ⟨10, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S1x16384_S4096x16384_0_1 : S1x16384.BroadcastsInDim S4096x16384 (![0, 1] : Fin 2 → Fin S4096x16384.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Pieces.lean ====
/-
  What one grid point's body leaves in the accumulator and in the output block, as the body's arithmetic applied to
  the point's input blocks and to the accumulator the point before left. Each case of the body's two conditions
  (first point of a run of eight, a middle point, the last point) stores the accumulator whole, and the last point
  also stores the output block whole; a store that covers its buffer makes the buffer's contents the stored value.
-/
import proofs.«147191_j57286273794902_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- A rectangle's zero offsets, as the constant function the library's lemmas about whole-block accesses ask for. -/
theorem hz : (![0, 0] : Fin 2 → Nat) = fun _ => 0 := funext fun a => by fin_cases a <;> rfl

/-- At a middle point of a run (neither its first nor its last) the accumulator is stored once, whole: the product of
    the point's two blocks added to what the point before left. -/
theorem scratch_B (c : Dev nD) (i : grid0.Coords) (a3 : Memref sig .tc .vmem S1024x512 .f32) (h3 : a3.IsWhole) (a4 : Memref sig .tc .vmem S512x1024 .i32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 : Vec F S1024x512 .f32) (x1 : Vec F S512x1024 .i32) (x2 : Vec F S1x1024 .f32) (x3 : Vec F S1x1024 .f32) (xs0 : Vec F S1024x1024 .f32) :
    sout0_B_0 c i a3 h3 a4 h4 a5 h5 a6 h6 a7 h7 a8 h8 hc0 hc1 x0 x1 x2 x3 xs0 = k0_pay2 x1 x2 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread,
    View.ld_unit_zero (S := S1024x512) hz, View.ld_unit_zero (S := S512x1024) hz, View.ld_unit_zero (S := S1x1024) hz,
    View.ld_unit_zero (S := S1024x1024) hz]

/-- At the first point of a run the accumulator is zeroed, read back, and stored with the product added to that
    zero block: what the point before left does not enter. -/
theorem scratch_A (c : Dev nD) (i : grid0.Coords) (a3 : Memref sig .tc .vmem S1024x512 .f32) (h3 : a3.IsWhole) (a4 : Memref sig .tc .vmem S512x1024 .i32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 : Vec F S1024x512 .f32) (x1 : Vec F S512x1024 .i32) (x2 : Vec F S1x1024 .f32) (x3 : Vec F S1x1024 .f32) :
    sout0_A_0 c i a3 h3 a4 h4 a5 h5 a6 h6 a7 h7 a8 h8 hc0 hc1 x0 x1 x2 x3 = k0_pay2 x1 x2 x0 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread,
    View.ld_unit_zero (S := S1024x512) hz, View.ld_unit_zero (S := S512x1024) hz, View.ld_unit_zero (S := S1x1024) hz,
    View.ld_unit_zero (S := S1024x1024) hz]

/-- At the last point of a run the accumulator is stored as at a middle point. -/
theorem scratch_C (c : Dev nD) (i : grid0.Coords) (a3 : Memref sig .tc .vmem S1024x512 .f32) (h3 : a3.IsWhole) (a4 : Memref sig .tc .vmem S512x1024 .i32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S512x1024 .i32) (x2 : Vec F S1x1024 .f32) (x3 : Vec F S1x1024 .f32) (xs0 : Vec F S1024x1024 .f32) :
    sout0_C_0 c i a3 h3 a4 h4 a5 h5 a6 h6 a7 h7 a8 h8 hc0 hc1 x0 x1 x2 x3 xs0 = k0_pay2 x1 x2 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x512) hz, View.ld_unit_zero (S := S512x1024) hz, View.ld_unit_zero (S := S1x1024) hz,
    View.ld_unit_zero (S := S1024x1024) hz]

/-- At the last point of a run the output block is stored whole: the accumulator just stored, read back, plus the
    bias row broadcast down the rows. -/
theorem out_C (c : Dev nD) (i : grid0.Coords) (a3 : Memref sig .tc .vmem S1024x512 .f32) (h3 : a3.IsWhole) (a4 : Memref sig .tc .vmem S512x1024 .i32) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 : Vec F S1024x512 .f32) (x1 : Vec F S512x1024 .i32) (x2 : Vec F S1x1024 .f32) (x3 : Vec F S1x1024 .f32) (xs0 : Vec F S1024x1024 .f32) :
    out0_C_4 c i a3 h3 a4 h4 a5 h5 a6 h6 a7 h7 a8 h8 hc0 hc1 x0 x1 x2 x3 xs0 = k0_pay3 (k0_pay2 x1 x2 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x512) hz, View.ld_unit_zero (S := S512x1024) hz, View.ld_unit_zero (S := S1x1024) hz,
    View.ld_unit_zero (S := S1024x1024) hz]

end Cert.KernelIdeal.Pieces

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«147191_j57286273794902_1_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.Payload.lean ====
/-
  The body's arithmetic at one entry, on the extended reals. At row `p` and column `q` of a [1024, 1024] block:
  the zero block is 0; one accumulation step is the accumulator's entry plus the sum over the 512 values of `k` in
  the point's blocks of x (p, k) · (w (k, q) / scale (0, q)), the weight converted from its integer code; the output
  step adds the bias row's entry at column `q`. Narrowing a float's format changes nothing there, and a product
  accumulated into a zero block is the plain sum.
-/
import proofs.«147191_j57286273794902_1_alg».proof.Proof.Gen.KernelIdeal.Skeleton
import proofs.«147191_j57286273794902_1_alg».proof.Proof.LibMatmul2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The left operand's row in the block product is the result's row. -/
theorem dot_row (j : S1024x1024.Idx) (c : dot_S1024x512_S512x1024_S1024x1024_1_0_0_1_n_n.contr.Idx) :
    (dot_S1024x512_S512x1024_S1024x1024_1_0_0_1_n_n.lhsIdx j c 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- The right operand's column in the block product is the result's column. -/
theorem dot_col (j : S1024x1024.Idx) (c : dot_S1024x512_S512x1024_S1024x1024_1_0_0_1_n_n.contr.Idx) :
    (dot_S1024x512_S512x1024_S1024x1024_1_0_0_1_n_n.rhsIdx j c 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The block a run's first point stores before accumulating is zero everywhere. -/
theorem zero_apply (j : S1024x1024.Idx) : k0_pay1 (F := Ideal) j = 0 := by
  unfold k0_pay1
  rw [shapeCast_self]
  exact Ideal.ofBits_zero_f32

/-- What one grid point contributes to entry (p, q) of its output block: the sum over the 512 values of k in the
    point's blocks of x (p, k) · (w (k, q) / scale (0, q)). -/
def prods (x : Vec Ideal S1024x512 .f32) (w : Vec Ideal S512x1024 .i32) (s : Vec Ideal S1x1024 .f32) (p q : Fin 1024) : EReal :=
  ∑ k : Fin 512, x (ix2 p k) * Ideal.div (FloatOps.sitofp (F := Ideal) .f32 (w (ix2 k q))) (s (ix2 (0 : Fin 1) q))

/-- One accumulation step at (p, q): the accumulator's entry plus the point's 512 products. -/
theorem step_apply (v3 : Vec Ideal S512x1024 .i32) (v5 : Vec Ideal S1x1024 .f32) (v9 : Vec Ideal S1024x512 .f32)
    (v11 : Vec Ideal S1024x1024 .f32) (p q : Fin 1024) :
    k0_pay2 (F := Ideal) v3 v5 v9 v11 (ix2 p q) = v11 (ix2 p q) + prods v9 v3 v5 p q := by
  unfold k0_pay2 prods
  rw [shapeCast_self]
  refine congrArg (v11 (ix2 p q) + ·) ?_
  refine (Idealize.ShloMosaic.LibMatmul2.matmul_zero_apply dot_S1024x512_S512x1024_S1024x1024_1_0_0_1_n_n rfl rfl rfl rfl dot_row dot_col none _ _ p q).trans ?_
  refine Finset.sum_congr rfl fun k _ => ?_
  refine congrArg (v9 (ix2 p k) * ·) ?_
  show Ideal.div (FloatOps.sitofp (F := Ideal) .f32 (v3 (ix2 k q))) (broadcastTo S512x1024 v5 broadcasts_S1x1024_S512x1024 (ix2 k q)) = _
  rw [broadcastTo_1b_ab_apply]

/-- The output step at (p, q): the accumulator's entry plus the bias row's entry at column q. -/
theorem bias_apply (v20 : Vec Ideal S1024x1024 .f32) (v21 : Vec Ideal S1x1024 .f32) (p q : Fin 1024) :
    k0_pay3 (F := Ideal) v20 v21 (ix2 p q) = v20 (ix2 p q) + v21 (ix2 (0 : Fin 1) q) := by
  unfold k0_pay3
  rw [shapeCast_self]
  show v20 (ix2 p q) + broadcastTo S1024x1024 v21 broadcasts_S1x1024_S1024x1024 (ix2 p q) = _
  rw [broadcastTo_1b_ab_apply]

end Cert.KernelIdeal.Payload

end
-- ==== Proof.Accum.lean ====
/-
  The accumulator across a run of eight grid points. Point `n` contributes, at entry (p, q), the sum of its 512
  products; the first point of a run (n ≡ 0 mod 8) leaves zero plus its contribution, every later point what the
  point before left plus its own. So after the point at offset r of a run the accumulator holds zero plus the
  contributions of the run's points 0, …, r.
-/
import proofs.«147191_j57286273794902_1_alg».proof.Proof.Gen.KernelIdeal.Value
import proofs.«147191_j57286273794902_1_alg».proof.Proof.Pieces
import proofs.«147191_j57286273794902_1_alg».proof.Proof.Payload
import Idealize.ShloMosaic.Lib.Pipeline.Value

noncomputable section

open scoped BigOperators

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx

variable (m : (ℓ : Loc nD τ sig) → Buf (Elt Ideal) ℓ)

/-- What grid point `n` adds to the accumulator, entry by entry (nothing past the grid). -/
def addend (c : Dev nD) (n : ℕ) : S1024x1024.Idx → EReal := fun j =>
  if h : n < cfg0.N then
    Cert.KernelIdeal.Payload.prods (iblk m c 0 (⟨n, h⟩ : Fin cfg0.N)) (iblk m c 1 (⟨n, h⟩ : Fin cfg0.N)) (iblk m c 2 (⟨n, h⟩ : Fin cfg0.N)) (j 0) (j 1)
  else 0

theorem addend_apply (c : Dev nD) (n : ℕ) (hb : n < cfg0.N) (p q : Fin 1024) :
    addend m c n (ix2 p q)
      = Cert.KernelIdeal.Payload.prods (iblk m c 0 (⟨n, hb⟩ : Fin cfg0.N)) (iblk m c 1 (⟨n, hb⟩ : Fin cfg0.N)) (iblk m c 2 (⟨n, hb⟩ : Fin cfg0.N)) p q := by
  unfold addend
  rw [dif_pos hb]

/-- One point's effect on the accumulator at (p, q): at the first point of a run zero, otherwise what the point
    before left, plus the point's contribution. -/
theorem step (c : Dev nD) (n : ℕ) (hb : n < cfg0.N) (acc : Vec Ideal S1024x1024 .f32) (p q : Fin 1024) :
    Cert.KernelIdeal.Value.scAt0_0 m c n hb acc (ix2 p q)
      = (if n % 8 = 0 then 0 else acc (ix2 p q)) + addend m c n (ix2 p q) := by
  have hN : n < 1024 := lt_of_lt_of_eq hb (show cfg0.N = 1024 from N_0)
  rw [addend_apply m c n hb p q]
  unfold Cert.KernelIdeal.Value.scAt0_0
  by_cases h0 : n % 8 = 0
  · have h1 : ¬n % 8 = 7 := by omega
    rw [dif_pos h0, dif_neg h1, if_pos h0]
    refine (congrFun (Cert.KernelIdeal.Pieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 p q)).trans ?_
    refine (Cert.KernelIdeal.Payload.step_apply (iblk m c 1 (⟨n, hb⟩ : Fin cfg0.N)) (iblk m c 2 (⟨n, hb⟩ : Fin cfg0.N)) (iblk m c 0 (⟨n, hb⟩ : Fin cfg0.N)) (k0_pay1 (F := Ideal)) p q).trans ?_
    rw [Cert.KernelIdeal.Payload.zero_apply]
  · rw [dif_neg h0, if_neg h0]
    by_cases h1 : n % 8 = 7
    · rw [dif_pos h1]
      refine (congrFun (Cert.KernelIdeal.Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
      exact Cert.KernelIdeal.Payload.step_apply (iblk m c 1 (⟨n, hb⟩ : Fin cfg0.N)) (iblk m c 2 (⟨n, hb⟩ : Fin cfg0.N)) (iblk m c 0 (⟨n, hb⟩ : Fin cfg0.N)) acc p q
    · rw [dif_neg h1]
      refine (congrFun (Cert.KernelIdeal.Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 p q)).trans ?_
      exact Cert.KernelIdeal.Payload.step_apply (iblk m c 1 (⟨n, hb⟩ : Fin cfg0.N)) (iblk m c 2 (⟨n, hb⟩ : Fin cfg0.N)) (iblk m c 0 (⟨n, hb⟩ : Fin cfg0.N)) acc p q

/-- After grid point `t` the accumulator holds, at (p, q), zero plus the contributions of the points of `t`'s run
    up to `t`: the run starts at 8 (t / 8) and `t` is at offset t % 8 in it. -/
theorem after_point (c : Dev nD) (t : Fin cfg0.N) (p q : Fin 1024) :
    (outsAt0 m c t.val t.isLt).2 (ix2 p q)
      = 0 + ∑ s ∈ Finset.range (t.val % 8 + 1), addend m c (8 * (t.val / 8) + s) (ix2 p q) := by
  rw [Cert.KernelIdeal.Value.soutsAt0_0_eq m c t]
  exact Pipeline.accAt_add_apply (fun n h => Cert.KernelIdeal.Value.scAt0_0 m c n h (VS0_0.read (Elt Ideal) VS0_0.junk))
    (Cert.KernelIdeal.Value.scAt0_0 m c) (fun _ => 0) (addend m c) (8 * (t.val / 8)) 7
    (fun h i => by
      obtain ⟨p, q, rfl⟩ : ∃ (p q : Fin 1024), i = ix2 p q := ⟨i 0, i 1, eq_ix2 i⟩
      rw [step m c _ h _ p q, if_pos (by omega)])
    (fun n h acc i hlt hle => by
      obtain ⟨p, q, rfl⟩ : ∃ (p q : Fin 1024), i = ix2 p q := ⟨i 0, i 1, eq_ix2 i⟩
      rw [step m c n h acc p q, if_neg (by omega)])
    (t.val % 8) (by omega) _ (ix2 p q)

end Cert.KernelIdeal.Accum

end
-- ==== Proof.Blocks.lean ====
/-
  Where a grid point's blocks sit in the arrays. The grid is (8, 16, 8), visited in row-major order, so point `t`
  has coordinates i = t / 128, j = t / 8 % 16, k = t % 8. The x block at `t` is rows 1024 i …, columns 512 k …;
  the weight block is rows 512 k …, columns 1024 j …; the scale and bias blocks are columns 1024 j … of their one
  row; the output block is rows 1024 i …, columns 1024 j …. The bias row is the one-dimensional bias re-laid as
  [1, 16384] before the call. Each lemma reads a block's entry as the argument array's entry at those coordinates.
-/
import proofs.«147191_j57286273794902_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- The five index maps as functions of the point's position in the row-major order of the grid. -/
theorem idx_facts : ∀ t : Fin cfg0.N,
    win0_0.index t (0 : Fin 2) = t.val / 128 ∧ win0_0.index t (1 : Fin 2) = t.val % 8
    ∧ win0_1.index t (0 : Fin 2) = t.val % 8 ∧ win0_1.index t (1 : Fin 2) = t.val / 8 % 16
    ∧ win0_2.index t (0 : Fin 2) = 0 ∧ win0_2.index t (1 : Fin 2) = t.val / 8 % 16
    ∧ win0_3.index t (0 : Fin 2) = 0 ∧ win0_3.index t (1 : Fin 2) = t.val / 8 % 16
    ∧ win0_4.index t (0 : Fin 2) = t.val / 128 ∧ win0_4.index t (1 : Fin 2) = t.val / 8 % 16 :=
  (by decide +kernel : ∀ t : Fin grid0.N, _)

/-- Entry (p, k) of the x block at point `t` is x at row 1024 (t / 128) + p, column 512 (t % 8) + k. -/
theorem x_blk (c : Dev nD) (t : Fin cfg0.N) (p : Fin 1024) (k : Fin 512) (P : Fin 8192) (K : Fin 4096)
    (hP : P.val = 1024 * (t.val / 128) + p.val) (hK : K.val = 512 * (t.val % 8) + k.val) :
    (iblk m c 0 t : Vec Ideal S1024x512 .f32) (ix2 p k) = m ((c : Thread nD τ).loc main_arg0) (ix2 P K) := by
  obtain ⟨e0, e1, -⟩ := idx_facts t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 1024 + 1 * p.val = P.val; omega
  | ⟨1, _⟩ => show win0_0.index t (1 : Fin 2) * 512 + 1 * k.val = K.val; omega

/-- Entry (k, q) of the weight block at point `t` is the weight at row 512 (t % 8) + k, column 1024 (t / 8 % 16) + q. -/
theorem w_blk (c : Dev nD) (t : Fin cfg0.N) (k : Fin 512) (q : Fin 1024) (K : Fin 4096) (Q : Fin 16384)
    (hK : K.val = 512 * (t.val % 8) + k.val) (hQ : Q.val = 1024 * (t.val / 8 % 16) + q.val) :
    (iblk m c 1 t : Vec Ideal S512x1024 .i32) (ix2 k q) = m ((c : Thread nD τ).loc main_arg1) (ix2 K Q) := by
  obtain ⟨-, -, e0, e1, -⟩ := idx_facts t
  show V m c main_arg1 (((cfg0.win 1).blk t).view.emb (ix2 k q)) = _
  refine (congrFun (V_main_arg1 m c) _).trans (congrArg _ (funext fun a => Fin.ext ?_))
  match a with
  | ⟨0, _⟩ => show win0_1.index t (0 : Fin 2) * 512 + 1 * k.val = K.val; omega
  | ⟨1, _⟩ => show win0_1.index t (1 : Fin 2) * 1024 + 1 * q.val = Q.val; omega

/-- Entry (0, q) of the scale block at point `t` is the scale at column 1024 (t / 8 % 16) + q. -/
theorem s_blk (c : Dev nD) (t : Fin cfg0.N) (q : Fin 1024) (Q : Fin 16384)
    (hQ : Q.val = 1024 * (t.val / 8 % 16) + q.val) :
    (iblk m c 2 t : Vec Ideal S1x1024 .f32) (ix2 (0 : Fin 1) q) = m ((c : Thread nD τ).loc main_arg2) (ix2 (0 : Fin 1) Q) := by
  obtain ⟨-, -, -, -, e0, e1, -⟩ := idx_facts t
  show V m c main_arg2 (((cfg0.win 2).blk t).view.emb (ix2 (0 : Fin 1) q)) = _
  refine (congrFun (V_main_arg2 m c) _).trans (congrArg _ (funext fun a => Fin.ext ?_))
  match a with
  | ⟨0, _⟩ => show win0_2.index t (0 : Fin 2) * 1 + 1 * 0 = 0; omega
  | ⟨1, _⟩ => show win0_2.index t (1 : Fin 2) * 1024 + 1 * q.val = Q.val; omega

/-- The bias row the call is given: the one-dimensional bias re-laid as [1, 16384]. -/
theorem bias_row (c : Dev nD) :
    (V m c main_v0 : S1x16384.Idx → EReal) = shapeCast S1x16384 (m ((c : Thread nD τ).loc main_arg3)) shapeCasts_S16384_S1x16384 := by
  dsimp only [Gen.V, Gen.hostOps0]; after_results; rfl

/-- Entry (0, q) of the bias block at point `t` is the bias at 1024 (t / 8 % 16) + q. -/
theorem b_blk (c : Dev nD) (t : Fin cfg0.N) (q : Fin 1024) (Q : Fin 16384)
    (hQ : Q.val = 1024 * (t.val / 8 % 16) + q.val) :
    (iblk m c 3 t : Vec Ideal S1x1024 .f32) (ix2 (0 : Fin 1) q) = m ((c : Thread nD τ).loc main_arg3) (ix1 Q) := by
  obtain ⟨-, -, -, -, -, -, e0, e1, -⟩ := idx_facts t
  show (V m c main_v0 : S1x16384.Idx → EReal) (((cfg0.win 3).blk t).view.emb (ix2 (0 : Fin 1) q)) = _
  rw [bias_row]
  refine Eq.trans (congrArg _ (funext fun a => Fin.ext ?_)) (shapeCast_a_1a_apply _ _ (0 : Fin 1) Q)
  match a with
  | ⟨0, _⟩ => show win0_3.index t (0 : Fin 2) * 1 + 1 * 0 = 0; omega
  | ⟨1, _⟩ => show win0_3.index t (1 : Fin 2) * 1024 + 1 * q.val = Q.val; omega

end Cert.KernelIdeal.Blocks

end
-- ==== Proof.BlockSum.lean ====
/-
  Regrouping a sum over consecutive indices into runs: a sum over B · n indices is the sum over the B runs of the
  sums over each run's n entries. It holds in any commutative additive monoid; the extended reals are one.
-/
import Mathlib.Algebra.BigOperators.Fin
import Mathlib.Algebra.BigOperators.Intervals
import Mathlib.Logic.Equiv.Fin.Basic

namespace Cert.BlockSum

open Finset

variable {M : Type*} [AddCommMonoid M]

/-- The index `n * b + r` of entry `r` of run `b`, among `B * n` indices. -/
def at_ (B n : ℕ) (b : Fin B) (r : Fin n) : Fin (B * n) :=
  ⟨n * b.val + r.val, by
    have hb := b.isLt
    have hr := r.isLt
    have h : n * (b.val + 1) ≤ n * B := Nat.mul_le_mul_left n hb
    rw [Nat.mul_add, Nat.mul_one] at h
    rw [Nat.mul_comm B n]
    omega⟩

@[simp] theorem at_val (B n : ℕ) (b : Fin B) (r : Fin n) : (at_ B n b r).val = n * b.val + r.val := rfl

/-- A sum over `B * n` consecutive indices is the sum over the `B` runs of the sums over each run's `n` entries. -/
theorem sum_runs (B n : ℕ) (g : Fin (B * n) → M) :
    ∑ k : Fin (B * n), g k = ∑ b : Fin B, ∑ r : Fin n, g (at_ B n b r) := by
  rw [← Fintype.sum_prod_type' (f := fun b r => g (at_ B n b r))]
  refine (Fintype.sum_equiv finProdFinEquiv _ _ (fun p => ?_)).symm
  refine congrArg g (Fin.ext ?_)
  simp [finProdFinEquiv, at_, Nat.add_comm]

/-- Entry `r` of run `b` among 4096 indices in eight runs of 512. -/
def at4096 (b : Fin 8) (r : Fin 512) : Fin 4096 := ⟨512 * b.val + r.val, by omega⟩

/-- 4096 indices as eight runs of 512, the runs counted by a natural number below 8. -/
theorem sum_4096 (g : Fin 4096 → M) :
    ∑ K : Fin 4096, g K = ∑ b ∈ range 8, ∑ r : Fin 512, if h : b < 8 then g (at4096 ⟨b, h⟩ r) else 0 := by
  rw [Finset.sum_range (fun b => ∑ r : Fin 512, if h : b < 8 then g (at4096 ⟨b, h⟩ r) else 0)]
  refine (sum_runs 8 512 g).trans (Finset.sum_congr rfl fun b _ => Finset.sum_congr rfl fun r _ => ?_)
  rw [dif_pos b.isLt]
  rfl

end Cert.BlockSum
-- ==== Proof.Spec.lean ====
/-
  The dense layer as one function of its four argument arrays, entry by entry, on the extended reals:
    dense x w s b (P, Q) = (Σ K < 4096, x (P, K) · (w (K, Q) / s (0, Q))) + b Q,
  the weight's integer code converted to a float before the division. Both programs are compared with this.
-/
import Idealize.ShloMosaic.PureOps.Ideal
import Idealize.ShloMosaic.Lib.ValueIdx

noncomputable section

open scoped BigOperators

namespace Cert.DenseSpec

open Idealize.ShloMosaic Idealize.ShloMosaic.ValueIdx

/-- One product of the sum: x (P, K) times the dequantized weight at (K, Q). -/
def term (x : (⟨2, ![8192, 4096]⟩ : Shape).Idx → EReal) (w : (⟨2, ![4096, 16384]⟩ : Shape).Idx → BitVec 32)
    (s : (⟨2, ![1, 16384]⟩ : Shape).Idx → EReal) (P : Fin 8192) (Q : Fin 16384) (K : Fin 4096) : EReal :=
  x (ix2 P K) * Ideal.div (FloatOps.sitofp (F := Ideal) .f32 (w (ix2 K Q))) (s (ix2 (0 : Fin 1) Q))

/-- The layer's result at (P, Q). -/
def dense (x : (⟨2, ![8192, 4096]⟩ : Shape).Idx → EReal) (w : (⟨2, ![4096, 16384]⟩ : Shape).Idx → BitVec 32)
    (s : (⟨2, ![1, 16384]⟩ : Shape).Idx → EReal) (b : (⟨1, ![16384]⟩ : Shape).Idx → EReal) :
    (⟨2, ![8192, 16384]⟩ : Shape).Idx → EReal :=
  fun i => (∑ K : Fin 4096, term x w s (i 0) (i 1) K) + b (ix1 (i 1))

theorem dense_apply (x : (⟨2, ![8192, 4096]⟩ : Shape).Idx → EReal) (w : (⟨2, ![4096, 16384]⟩ : Shape).Idx → BitVec 32)
    (s : (⟨2, ![1, 16384]⟩ : Shape).Idx → EReal) (b : (⟨1, ![16384]⟩ : Shape).Idx → EReal) (P : Fin 8192) (Q : Fin 16384) :
    dense x w s b (ix2 P Q) = (∑ K : Fin 4096, term x w s P Q K) + b (ix1 Q) := rfl

end Cert.DenseSpec

end
-- ==== Proof.Final.lean ====
/-
  The kernel's result array is the specification. The output block (i, j) is written back once, at the last point
  of its run of eight: it holds the accumulator after that point plus the bias row. The accumulator then holds zero
  plus the eight points' contributions, the point at offset s contributing the products for k = 512 s, …, 512 s + 511
  of the rows 1024 i … of x and the columns 1024 j … of the weights; the eight runs of 512 make up all 4096 values
  of k. Every entry of the [8192, 16384] result lies in exactly such a block, so the array ends at the specification.
-/
import proofs.«147191_j57286273794902_1_alg».proof.Proof.Accum
import proofs.«147191_j57286273794902_1_alg».proof.Proof.Blocks
import proofs.«147191_j57286273794902_1_alg».proof.Proof.BlockSum
import proofs.«147191_j57286273794902_1_alg».proof.Proof.Spec

noncomputable section

open scoped BigOperators

open Idealize.ShloMosaic Idealize.ShloMosaic.TcCoe Idealize.SL.Sem
open Idealize.ShloMosaic.Pipeline (Dat)

namespace Cert.KernelIdeal.DenseValue

open Cert.KernelIdeal Cert.KernelIdeal.Gen Idealize.ShloMosaic.ValueIdx

variable (m : (ℓ : Loc nD τ sig) → Buf (Elt Ideal) ℓ) (ρ : Dev nD → PrngReg)

/-- At the last point of a run the output block is the accumulator just stored plus the bias row. -/
theorem out_apply (c : Dev nD) (t : Fin cfg0.N) (h1 : t.val % 8 = 7) (p q : Fin 1024) :
    (outsAt0 m c t.val t.isLt).1 (ix2 p q)
      = (outsAt0 m c t.val t.isLt).2 (ix2 p q) + (iblk m c 3 t : Vec Ideal S1x1024 .f32) (ix2 (0 : Fin 1) q) := by
  have h0 : ¬t.val % 8 = 0 := by omega
  rw [outsAt0_C m c t h0 h1]
  dsimp only
  refine ((congrFun (Cert.KernelIdeal.Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans
    (Cert.KernelIdeal.Payload.bias_apply _ (iblk m c 3 t) p q)).trans ?_
  refine congrArg (· + (iblk m c 3 t : Vec Ideal S1x1024 .f32) (ix2 (0 : Fin 1) q)) ?_
  exact (congrFun (Cert.KernelIdeal.Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).symm

/-- The contribution of the point at offset `s` of `t`'s run, at (p, q): the products for the 512 values of k in
    run `s`, at the row and column the output block of `t` gives (p, q). -/
theorem addend_eq (c : Dev nD) (t : Fin cfg0.N) (s : ℕ) (hs : s < 8) (p q : Fin 1024) (P : Fin 8192) (Q : Fin 16384)
    (hP : P.val = 1024 * (t.val / 128) + p.val) (hQ : Q.val = 1024 * (t.val / 8 % 16) + q.val) :
    Cert.KernelIdeal.Accum.addend m c (8 * (t.val / 8) + s) (ix2 p q)
      = ∑ r : Fin 512, if h : s < 8 then Cert.DenseSpec.term (m ((c : Thread nD τ).loc main_arg0)) (m ((c : Thread nD τ).loc main_arg1)) (m ((c : Thread nD τ).loc main_arg2)) P Q (Cert.BlockSum.at4096 ⟨s, h⟩ r) else 0 := by
  have hN : t.val < 1024 := lt_of_lt_of_eq t.isLt (show cfg0.N = 1024 from N_0)
  have hb : 8 * (t.val / 8) + s < cfg0.N :=
    lt_of_lt_of_eq (show 8 * (t.val / 8) + s < 1024 by omega) (show (1024 : ℕ) = cfg0.N from N_0.symm)
  rw [Cert.KernelIdeal.Accum.addend_apply m c _ hb p q]
  unfold Cert.KernelIdeal.Payload.prods
  refine Finset.sum_congr rfl fun r _ => ?_
  rw [dif_pos hs]
  unfold Cert.DenseSpec.term
  have hK : (Cert.BlockSum.at4096 ⟨s, hs⟩ r).val = 512 * ((8 * (t.val / 8) + s) % 8) + r.val := by
    show 512 * s + r.val = _
    omega
  rw [Cert.KernelIdeal.Blocks.x_blk m c ⟨8 * (t.val / 8) + s, hb⟩ p r P (Cert.BlockSum.at4096 ⟨s, hs⟩ r) (by show P.val = 1024 * ((8 * (t.val / 8) + s) / 128) + p.val; omega) hK,
    Cert.KernelIdeal.Blocks.w_blk m c ⟨8 * (t.val / 8) + s, hb⟩ r q (Cert.BlockSum.at4096 ⟨s, hs⟩ r) Q hK (by show Q.val = 1024 * ((8 * (t.val / 8) + s) / 8 % 16) + q.val; omega),
    Cert.KernelIdeal.Blocks.s_blk m c ⟨8 * (t.val / 8) + s, hb⟩ q Q (by show Q.val = 1024 * ((8 * (t.val / 8) + s) / 8 % 16) + q.val; omega)]

/-- What a flushing point writes back is its block of the specification. -/
theorem flushed_eq (c : Dev nD) (t : Fin cfg0.N) (hf : (cfg0.win 4).flush t = true) :
    (dats m 0 c).flushed 4 t = ((cfg0.win 4).blk t).view.read (Elt Ideal) (Cert.DenseSpec.dense (m ((c : Thread nD τ).loc main_arg0)) (m ((c : Thread nD τ).loc main_arg1)) (m ((c : Thread nD τ).loc main_arg2)) (m ((c : Thread nD τ).loc main_arg3))) := by
  have h1 : t.val % 8 = 7 := (flush0_4 t).mp hf
  have hN : t.val < 1024 := lt_of_lt_of_eq t.isLt (show cfg0.N = 1024 from N_0)
  obtain ⟨-, -, -, -, -, -, -, -, e0, e1⟩ := Cert.KernelIdeal.Blocks.idx_facts t
  rw [Cert.KernelIdeal.Value.flushed4]
  funext y
  obtain ⟨p, q, rfl⟩ : ∃ (p q : Fin 1024), y = ix2 p q := ⟨y 0, y 1, eq_ix2 y⟩
  have hemb : ((cfg0.win 4).blk t).view.emb (ix2 p q)
      = ix2 (⟨1024 * (t.val / 128) + p.val, by omega⟩ : Fin 8192) (⟨1024 * (t.val / 8 % 16) + q.val, by omega⟩ : Fin 16384) :=
    funext fun a => Fin.ext (by
      match a with
      | ⟨0, _⟩ => show win0_4.index t (0 : Fin 2) * 1024 + 1 * p.val = 1024 * (t.val / 128) + p.val; omega
      | ⟨1, _⟩ => show win0_4.index t (1 : Fin 2) * 1024 + 1 * q.val = 1024 * (t.val / 8 % 16) + q.val; omega)
  show (outsAt0 m c t.val t.isLt).1 (ix2 p q) = (Cert.DenseSpec.dense (m ((c : Thread nD τ).loc main_arg0)) (m ((c : Thread nD τ).loc main_arg1)) (m ((c : Thread nD τ).loc main_arg2)) (m ((c : Thread nD τ).loc main_arg3))) (((cfg0.win 4).blk t).view.emb (ix2 p q))
  rw [hemb, Cert.DenseSpec.dense_apply, out_apply m c t h1 p q, Cert.KernelIdeal.Accum.after_point m c t p q,
    Cert.KernelIdeal.Blocks.b_blk m c t q ⟨1024 * (t.val / 8 % 16) + q.val, by omega⟩ rfl, zero_add, h1,
    Cert.BlockSum.sum_4096]
  refine congrArg (· + _) (Finset.sum_congr rfl fun s hs => ?_)
  exact addend_eq m c t s (Finset.mem_range.mp hs) p q _ _ rfl rfl

/-- An entry of the result array is in point `t`'s output block iff each coordinate is in the block's range. -/
theorem mem_blk (t : Fin cfg0.N) (i : S8192x16384.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry (P, Q) of the result is in the block written back at the last point of the run of block
    (P / 1024, Q / 1024). -/
theorem cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hb : (((i 0).val / 1024) * 16 + (i 1).val / 1024) * 8 + 7 < cfg0.N := by rw [show cfg0.N = 1024 from N_0]; omega
  refine ⟨⟨(((i 0).val / 1024) * 16 + (i 1).val / 1024) * 8 + 7, hb⟩, (flush0_4 _).mpr (by show ((((i 0).val / 1024) * 16 + (i 1).val / 1024) * 8 + 7) % 8 = 7; omega), ?_⟩
  obtain ⟨-, -, -, -, -, -, -, -, e0, e1⟩ := Cert.KernelIdeal.Blocks.idx_facts ⟨(((i 0).val / 1024) * 16 + (i 1).val / 1024) * 8 + 7, hb⟩
  rw [mem_blk]
  intro a
  match a with
  | ⟨0, _⟩ =>
    show win0_4.index ⟨(((i 0).val / 1024) * 16 + (i 1).val / 1024) * 8 + 7, hb⟩ (0 : Fin 2) * 1024 ≤ (i 0).val ∧ (i 0).val < win0_4.index ⟨(((i 0).val / 1024) * 16 + (i 1).val / 1024) * 8 + 7, hb⟩ (0 : Fin 2) * 1024 + 1024
    rw [e0]
    show ((((i 0).val / 1024) * 16 + (i 1).val / 1024) * 8 + 7) / 128 * 1024 ≤ (i 0).val ∧ (i 0).val < ((((i 0).val / 1024) * 16 + (i 1).val / 1024) * 8 + 7) / 128 * 1024 + 1024
    omega
  | ⟨1, _⟩ =>
    show win0_4.index ⟨(((i 0).val / 1024) * 16 + (i 1).val / 1024) * 8 + 7, hb⟩ (1 : Fin 2) * 1024 ≤ (i 1).val ∧ (i 1).val < win0_4.index ⟨(((i 0).val / 1024) * 16 + (i 1).val / 1024) * 8 + 7, hb⟩ (1 : Fin 2) * 1024 + 1024
    rw [e1]
    show ((((i 0).val / 1024) * 16 + (i 1).val / 1024) * 8 + 7) / 8 % 16 * 1024 ≤ (i 1).val ∧ (i 1).val < ((((i 0).val / 1024) * 16 + (i 1).val / 1024) * 8 + 7) / 8 % 16 * 1024 + 1024
    omega

/-- The result array after the run is the specification of the argument arrays. -/
theorem final (c : Dev nD) : (dats m 0 c).arrAt 4 cfg0.N = (Cert.DenseSpec.dense (m ((c : Thread nD τ).loc main_arg0)) (m ((c : Thread nD τ).loc main_arg1)) (m ((c : Thread nD τ).loc main_arg2)) (m ((c : Thread nD τ).loc main_arg3))) :=
  (dats m 0 c).arrAt_eq_of_cover 4 (Cert.DenseSpec.dense (m ((c : Thread nD τ).loc main_arg0)) (m ((c : Thread nD τ).loc main_arg1)) (m ((c : Thread nD τ).loc main_arg2)) (m ((c : Thread nD τ).loc main_arg3))) (flushed_eq m c) cover

/-- Every weakly fair execution of the kernel's program terminates with the result array at the specification and
    the arguments unchanged. -/
theorem run : θ_run defs (onTc (τ := τ) (main (F := Ideal))) ⟨m, fun _ => 0, ρ⟩ fun r => ∀ c : Dev nD,
      r.2.mem ((c : Thread nD τ).loc main_v1) = (Cert.DenseSpec.dense (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.DenseValue

end
-- ==== Proof.RefIsSpec.lean ====
/-
  The reference computes the specification: its matrix product at (P, Q) is the sum over K of x (P, K) times the
  quotient of the converted weight (K, Q) by the scale broadcast down the rows, i.e. by s (0, Q); the bias,
  broadcast to [1, 16384] and then down the rows, contributes b Q.
-/
import proofs.«147191_j57286273794902_1_alg».proof.Proof.Gen.ReferenceIdeal.Read
import proofs.«147191_j57286273794902_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

theorem lidx_eq (P : Fin 8192) (Q : Fin 16384) (k : Fin 4096) : lidx_main_v3 (ix2 P Q) k = ix2 P k :=
  funext fun a => Fin.ext (by match a with | ⟨0, _⟩ => rfl | ⟨1, _⟩ => rfl)

theorem ridx_eq (P : Fin 8192) (Q : Fin 16384) (k : Fin 4096) : ridx_main_v3 (ix2 P Q) k = ix2 k Q :=
  funext fun a => Fin.ext (by match a with | ⟨0, _⟩ => rfl | ⟨1, _⟩ => rfl)

theorem sidx_eq (k : Fin 4096) (Q : Fin 16384) : idx_main_v1 (ix2 k Q) = ix2 (0 : Fin 1) Q :=
  funext fun a => Fin.ext (by match a with | ⟨0, _⟩ => rfl | ⟨1, _⟩ => rfl)

theorem bidx_eq (P : Fin 8192) (Q : Fin 16384) : idx_main_v4 (idx_main_v5 (ix2 P Q)) = ix1 Q :=
  funext fun a => Fin.ext (by match a with | ⟨0, _⟩ => rfl)

/-- The reference's result, as a function of the four arguments, is the specification. -/
theorem ref_is_dense (x0 : (⟨S8192x4096, .f32⟩ : BufTy).Contents (Elt Ideal)) (x1 : (⟨S4096x16384, .i32⟩ : BufTy).Contents (Elt Ideal))
    (x2 : (⟨S1x16384, .f32⟩ : BufTy).Contents (Elt Ideal)) (x3 : (⟨S16384, .f32⟩ : BufTy).Contents (Elt Ideal)) :
    val_main_v6 (F := Ideal) x0 x1 x2 x3 = Cert.DenseSpec.dense x0 x1 x2 x3 := by
  funext i
  obtain ⟨P, Q, rfl⟩ : ∃ (P : Fin 8192) (Q : Fin 16384), i = ix2 P Q := ⟨i 0, i 1, eq_ix2 i⟩
  rw [val_main_v6_apply, val_main_v3_apply, val_main_v5_apply, val_main_v4_apply, bidx_eq, Cert.DenseSpec.dense_apply]
  simp only [lidx_eq, ridx_eq, val_main_v2_apply, val_main_v0_apply, val_main_v1_apply, sidx_eq,
    Ideal.addf_def, Ideal.hostDivf_def, Cert.DenseSpec.term]

end Cert.ReferenceIdeal.RefValue

end
-- ==== Proof.lean ====
/-
  A dense layer with integer-coded weights: out[P, Q] = Σ_K x[P, K] · (w[K, Q] / scale[0, Q]) + bias[Q] over
  x : f32[8192, 4096], w : i32[4096, 16384] (converted to a float), scale : f32[1, 16384], bias : f32[16384].
  The kernel tiles the product over a grid (8, 16, 8): point (i, j, k) multiplies a [1024, 512] block of x with
  the [512, 1024] block of the dequantized weights and adds the product to an accumulator that point k = 0
  zeroes first; point k = 7 adds the bias row and writes the [1024, 1024] output block (i, j).
  The reference divides the whole converted weight matrix by the broadcast scale, takes one matrix product
  over all 4096 values of K and adds the broadcast bias.
  On the extended reals both are the same sum, the kernel's grouped into eight runs of 512 consecutive K
  starting from zero: addition there is commutative and associative with 0 neutral, so no finiteness is used.
  The three frames are the programs' runs with the results dropped; the idealization rewrote nothing.
-/
import proofs.«147191_j57286273794902_1_alg».proof.Defs
import proofs.«147191_j57286273794902_1_alg».proof.Proof.Gen.Kernel
import proofs.«147191_j57286273794902_1_alg».proof.Proof.Gen.Kernel.Skeleton
import proofs.«147191_j57286273794902_1_alg».proof.Proof.Gen.Kernel.Launch
import proofs.«147191_j57286273794902_1_alg».proof.Proof.Gen.Kernel.Points
import proofs.«147191_j57286273794902_1_alg».proof.Proof.Gen.Kernel.Frame
import proofs.«147191_j57286273794902_1_alg».proof.Proof.Gen.KernelIdeal
import proofs.«147191_j57286273794902_1_alg».proof.Proof.Gen.KernelIdeal.Skeleton
import proofs.«147191_j57286273794902_1_alg».proof.Proof.Gen.KernelIdeal.Launch
import proofs.«147191_j57286273794902_1_alg».proof.Proof.Gen.KernelIdeal.Points
import proofs.«147191_j57286273794902_1_alg».proof.Proof.Gen.KernelIdeal.Frame
import proofs.«147191_j57286273794902_1_alg».proof.Proof.Gen.KernelIdeal.Value
import proofs.«147191_j57286273794902_1_alg».proof.Proof.Gen.ReferenceIdeal
import proofs.«147191_j57286273794902_1_alg».proof.Proof.Gen.ReferenceIdeal.Run
import proofs.«147191_j57286273794902_1_alg».proof.Proof.Gen.ReferenceIdeal.Read
import proofs.«147191_j57286273794902_1_alg».proof.Proof.Gen.Pre_finite_inputs
import proofs.«147191_j57286273794902_1_alg».proof.Proof.Final
import proofs.«147191_j57286273794902_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array ends at the specification of its arguments, and the reference's at
    the specification of arguments that agree with them. -/
theorem algebraic : Cert.algebraic_KernelIdeal_ReferenceIdeal := by
  intro m ρ m' ρ' _ hagree
  refine ⟨fun c => Cert.DenseSpec.dense (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.ref_is_dense _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
